-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩
abbrev S16384 : Shape := ⟨1, ![16384]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  reducesTo_S16384x4096_S16384_d1 : S16384x4096.ReducesTo [1] S16384
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := mulf main_arg0 main_arg0
  let main_cst_0 : FVec F S_ .f32 := constant S_ .f32 0x00000000#32
  let main_v5 : FVec F S16384 .f32 := (fun x v => Host.reduceAdd x v reducesTo_S16384x4096_S16384_d1 h_S_) main_v4 main_cst_0
  let main_cst_1 : FVec F S_ .f32 := constant S_ .f32 0x00000000#32
  let main_v6 : FVec F S16384 .f32 := broadcastInDim S16384 ![] bcast_S_S16384 main_cst_1
  let main_v7 : IVec S16384 1 := cmpf .ogt main_v5 main_v6
  let main_c_2 : IVec S_ 1 := constantI S_ 1 1#1
  let main_v8 : IVec S_ 1 := (fun x v => Host.reduce IntOp.andi x v reducesTo_S16384_S_d0 h_S_) main_v7 main_c_2
  let main_v9 : IVec S_ 1 := andi main_v3 main_v8
  main_v9
-- ==== Kernel.lean ====
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 2
  | .vmem => 4
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S_ : Shape := ⟨0, ![]⟩
abbrev S16384 : Shape := ⟨1, ![16384]⟩
abbrev S16384x1 : Shape := ⟨2, ![16384, 1]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S_, .f32⟩
  | .hbm, ⟨3, _⟩ => ⟨S16384, .f32⟩
  | .hbm, ⟨4, _⟩ => ⟨S16384x1, .f32⟩
  | .hbm, ⟨5, _⟩ => ⟨S16384x1, .f32⟩
  | .hbm, ⟨6, _⟩ => ⟨S16384x4096, .f32⟩
  | .hbm, ⟨7, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)

variable [Facts₀]

class Facts : Prop extends Facts₀ where

variable [Facts]
-- ==== Proof.LibRsqrtDiv.lean ====
/-
  On the extended reals, multiplying by the reciprocal square root of a POSITIVE number is dividing by its
  square root: for `0 < s`, `x * rsqrt s = x / sqrt s`, whatever `x` is (finite or infinite).

  The hypothesis is needed exactly at `s = 0`: there `rsqrt 0 = ⊤` and `sqrt 0 = 0`, so the left side is `x * ⊤`
  while the right side is a division by zero (`⊤`, `⊥` or, for `x = 0`, the value `⊥` the extended reals give `0 / 0`);
  at `x = 0` the two sides are `0` and `⊥`. For negative `s` both roots are outside their domain. At `s = ⊤` both sides
  are `x * 0`, and at a positive real `s` both are `x * (√s)⁻¹`.
-/
import Idealize.ShloMosaic.PureOps.Ideal

noncomputable section

namespace Idealize.ShloMosaic.Ideal

/-- For a positive extended real `s`, the product with the reciprocal square root is the quotient by the square
    root: `x * rsqrt s = div x (sqrt s)`. No finiteness of `x` or `s` is assumed. -/
theorem mul_rsqrt_eq_div_sqrt (x s : EReal) (hs : 0 < s) : x * Ideal.rsqrt s = Ideal.div x (Ideal.sqrt s) := by
  induction s using EReal.rec with
  | bot => exact absurd hs (not_lt_bot)
  | top =>
    -- `rsqrt ⊤ = 0`, `sqrt ⊤ = ⊤`, and `⊤⁻¹ = 0`
    show x * 0 = Ideal.div x ⊤
    unfold Ideal.div
    rw [if_neg EReal.top_ne_zero, EReal.inv_top]
  | coe r =>
    have hr : 0 < r := EReal.coe_pos.mp hs
    have hroot : 0 < Real.sqrt r := Real.sqrt_pos.mpr hr
    show x * (if r < 0 then ⊥ else if r = 0 then ⊤ else (((Real.sqrt r)⁻¹ : ℝ) : EReal))
      = Ideal.div x (if r < 0 then ⊥ else ((Real.sqrt r : ℝ) : EReal))
    rw [if_neg (not_lt.mpr hr.le), if_neg hr.ne', if_neg (not_lt.mpr hr.le)]
    unfold Ideal.div
    rw [if_neg (EReal.coe_ne_zero.mpr hroot.ne'), EReal.coe_inv]

end Idealize.ShloMosaic.Ideal

end
-- ==== Proof.Spec.lean ====
/-
  The function both programs compute: per-row L2 normalization of a 16384 × 4096 array over the extended reals.

  Row `r`'s sum of squares is `rowSq x r = ∑ k, x(r,k)²`, and the normalized array has at `(r, c)` the entry
  `x(r,c) * rsqrt (rowSq x r)`. Written with the reciprocal square root, this is the kernel's arrangement; the
  reference's arrangement, `x(r,c) / sqrt (rowSq x r)`, is the same number wherever the row's sum of squares is
  positive (`normalized_eq_div`), and differs from it on a row of zeros, where the quotient is `0 / 0`.
-/
import Idealize.ShloMosaic.Lib.ValueIdx
import proofs.«171980_j76338748719714_2_alg».proof.Proof.LibRsqrtDiv

noncomputable section

open scoped BigOperators

namespace Cert.RowNormalize

open Idealize.ShloMosaic Idealize.ShloMosaic.ValueIdx

/-- The array's shape: 16384 rows of 4096 entries. -/
abbrev Arr : Shape := ⟨2, ![16384, 4096]⟩

/-- The sum of the squares of row `r`. -/
def rowSq (x : Arr.Idx → EReal) (r : Fin 16384) : EReal := ∑ k : Fin 4096, x (ix2 r k) * x (ix2 r k)

/-- Every entry times the reciprocal square root of its row's sum of squares. -/
def normalized (x : Arr.Idx → EReal) : Arr.Idx → EReal := fun i => x i * Ideal.rsqrt (rowSq x (i 0))

/-- Where a row's sum of squares is positive, the entry times the reciprocal square root is the entry divided by
    the square root. -/
theorem normalized_eq_div (x : Arr.Idx → EReal) (i : Arr.Idx) (h : 0 < rowSq x (i 0)) :
    normalized x i = Ideal.div (x i) (Ideal.sqrt (rowSq x (i 0))) :=
  Ideal.mul_rsqrt_eq_div_sqrt _ _ h

end Cert.RowNormalize

end
-- ==== Proof.KernelBlock.lean ====
/-
  One block of the kernel, read index by index. A block is 512 whole rows of the array (all 4096 entries of each).
  The body squares the block, sums each of its rows, takes the reciprocal square root of the 512 sums, and multiplies
  every entry by its row's value. So the block it leaves has at `(q, c)` the entry `P(q,c) * rsqrt (∑ k, P(q,k)²)`:
  a row's result depends on that row of the block alone, which is why whole rows per block make the blocks independent.
-/
import proofs.«171980_j76338748719714_2_alg».proof.Proof.Gen.KernelIdeal.Value
import proofs.«171980_j76338748719714_2_alg».proof.Proof.Spec
import Idealize.ShloMosaic.PureOps.Ideal.Laws

noncomputable section

open scoped BigOperators

namespace Cert.RowNormalize.Kernel

open Cert.KernelIdeal Cert.KernelIdeal.Gen
open Idealize.ShloMosaic Idealize.ShloMosaic.ValueIdx Cert.RowNormalize

/-- The body's sum over the lanes of the squared block, at row `q` of the block: the sum over the row of the squares. -/
theorem block_rowSum (P : Vec Ideal S512x4096 .f32) (q : Fin 512) :
    (multiReduction (F := Ideal) .add [1] S512 (mulf P P) 0x00000000#32 reduces_S512x4096_S512 (.inl rfl) rfl) (ix1 q)
      = ∑ k : Fin 4096, P (ix2 q k) * P (ix2 q k) := by
  refine (Ideal.multiReduction_add_single (mulf P P) 0x00000000#32 reduces_S512x4096_S512 (.inl rfl) rfl (ix1 q)).trans ?_
  refine Finset.sum_congr rfl fun k _ => ?_
  have e : reduces_S512x4096_S512.lift (ix1 q) k = ix2 q k :=
    funext fun a => Fin.ext (by match a with | ⟨0, _⟩ => rfl | ⟨1, _⟩ => rfl)
  rw [e]
  rfl

/-- What the body leaves in the block, at row `q` and lane `c`: the entry times the reciprocal square root of the
    sum of the squares of row `q` of the block. -/
theorem block_apply (P : Vec Ideal S512x4096 .f32) (q : Fin 512) (c : Fin 4096) :
    Cert.KernelIdeal.Value.E1 (F := Ideal) P (ix2 q c)
      = P (ix2 q c) * Ideal.rsqrt (∑ k : Fin 4096, P (ix2 q k) * P (ix2 q k)) := by
  have e0 : Cert.KernelIdeal.Value.ix1_0 (ix2 q c) = ix2 q c :=
    funext fun a => Fin.ext (by match a with | ⟨0, _⟩ => rfl | ⟨1, _⟩ => rfl)
  have e1 : Cert.KernelIdeal.Value.ix1_1 (ix2 q c) = ix1 q :=
    funext fun a => Fin.ext (by match a with | ⟨0, _⟩ => rfl)
  show P (Cert.KernelIdeal.Value.ix1_0 (ix2 q c)) * Ideal.rsqrt
      ((multiReduction (F := Ideal) .add [1] S512 (mulf P P) 0x00000000#32 reduces_S512x4096_S512 (.inl rfl) rfl)
        (Cert.KernelIdeal.Value.ix1_1 (ix2 q c))) = _
  rw [e0, e1, block_rowSum]

/-- The offsets of the body's one load and one store rectangle are all zero: both span the whole block. -/
theorem offsets_zero : (![0, 0] : Fin 2 → Nat) = fun _ => 0 := funext fun a => by fin_cases a <;> rfl

/-- The staging buffer after the body, as a function of the block `P` it loaded, at row `q` and lane `c`: the body's
    single store writes the whole buffer, and its payload is the block read above. -/
theorem out_apply (P : Vec Ideal S512x4096 .f32) (q : Fin 512) (c : Fin 4096) :
    out0_1 (F := Ideal) P (ix2 q c) = P (ix2 q c) * Ideal.rsqrt (∑ k : Fin 4096, P (ix2 q k) * P (ix2 q k)) := by
  unfold out0_1
  rw [View.ld_unit_zero (S := S512x4096) offsets_zero]
  exact (Cert.KernelIdeal.Value.canon1_eq (F := Ideal) P (ix2 q c)).trans (block_apply P q c)

end Cert.RowNormalize.Kernel

end
-- ==== Proof.KernelArray.lean ====
/-
  From blocks to the whole array. The grid has 32 points; at point `t` both windows sit on rows `512 t … 512 t + 511`
  of their arrays, all 4096 columns (block index `(t, 0)` for the input and for the output). A row of the array lies
  whole inside one block, so the sum over the row of the block IS the sum over the row of the array, and what point
  `t` writes back is block `t` of the normalized array. Row `r` is covered by point `r / 512`, so the 32 blocks tile
  the output array and it ends holding the normalized array everywhere.
-/
import proofs.«171980_j76338748719714_2_alg».proof.Proof.KernelBlock

noncomputable section

open scoped BigOperators

namespace Cert.RowNormalize.Kernel

open Cert.KernelIdeal Cert.KernelIdeal.Gen
open Idealize.ShloMosaic Idealize.ShloMosaic.TcCoe Idealize.SL.Sem Idealize.ShloMosaic.ValueIdx Cert.RowNormalize
open Idealize.ShloMosaic.Pipeline (Dat)

variable (m : (ℓ : Loc nD τ sig) → Buf (Elt Ideal) ℓ) (ρ : Dev nD → PrngReg)

/-- The two index maps, decided over the grid: the input block moves with the output block along the rows, and
    neither moves along the columns. -/
theorem idx_facts : ∀ t : Fin cfg0.N, win0_0.index t (0 : Fin 2) = win0_1.index t (0 : Fin 2)
    ∧ win0_0.index t (1 : Fin 2) = 0
    ∧ win0_1.index t (1 : Fin 2) = 0 :=
  (by decide +kernel : ∀ t : Fin grid0.N, _)

/-- Each of the 32 row blocks is some point's output block. -/
theorem idx_onto : ∀ q0 : Fin 32, ∃ t : Fin cfg0.N, win0_1.index t = ![q0.val, 0] :=
  (by decide +kernel : ∀ q0 : Fin 32, ∃ t : Fin grid0.N, win0_1.index t = ![q0.val, 0])

/-- The input window's block at point `t`, as a 512 × 4096 array of extended reals. -/
abbrev inBlock (c : Dev nD) (t : Fin cfg0.N) : Vec Ideal S512x4096 .f32 := iblk m c 0 t

/-- WHAT POINT `t` WRITES BACK is block `t` of the normalized array of the input as the region finds it. -/
theorem flushed_eq (c : Dev nD) (t : Fin cfg0.N) :
    (dats m 0 c).flushed 1 t = ((cfg0.win 1).blk t).view.read (Elt Ideal) (normalized (V m c main_arg0)) := by
  rw [Cert.KernelIdeal.Value.flushed1]
  obtain ⟨e0, e1, e2⟩ := idx_facts t
  funext j
  obtain ⟨q, l, rfl⟩ : ∃ (q : Fin 512) (l : Fin 4096), j = ix2 q l := ⟨j 0, j 1, eq_ix2 j⟩
  refine (out_apply (inBlock m c t) q l).trans ?_
  -- an entry of the input block is the array's entry in the same row of the output block
  have hblk : ∀ k : Fin 4096, inBlock m c t (ix2 q k)
      = V m c main_arg0 (ix2 ((((cfg0.win 1).blk t).view.emb (ix2 q l)) 0) k) := by
    intro k
    show V m c main_arg0 (((cfg0.win 0).blk t).view.emb (ix2 q k)) = _
    refine congrArg (V m c main_arg0) (funext fun a => Fin.ext ?_)
    match a with
    | ⟨0, _⟩ => show win0_0.index t (0 : Fin 2) * 512 + 1 * q.val = win0_1.index t (0 : Fin 2) * 512 + 1 * q.val; omega
    | ⟨1, _⟩ => show win0_0.index t (1 : Fin 2) * 4096 + 1 * k.val = k.val; omega
  have hhead : inBlock m c t (ix2 q l) = V m c main_arg0 (((cfg0.win 1).blk t).view.emb (ix2 q l)) := by
    show V m c main_arg0 (((cfg0.win 0).blk t).view.emb (ix2 q l)) = _
    refine congrArg (V m c main_arg0) (funext fun a => Fin.ext ?_)
    match a with
    | ⟨0, _⟩ => show win0_0.index t (0 : Fin 2) * 512 + 1 * q.val = win0_1.index t (0 : Fin 2) * 512 + 1 * q.val; omega
    | ⟨1, _⟩ => show win0_0.index t (1 : Fin 2) * 4096 + 1 * l.val = win0_1.index t (1 : Fin 2) * 4096 + 1 * l.val; omega
  have hsum : (∑ k : Fin 4096, inBlock m c t (ix2 q k) * inBlock m c t (ix2 q k))
      = rowSq (V m c main_arg0) ((((cfg0.win 1).blk t).view.emb (ix2 q l)) 0) :=
    Finset.sum_congr rfl fun k _ => by rw [hblk k]
  rw [hsum, hhead]
  rfl

/-- An index of the array is in point `t`'s block iff each coordinate is in the block's range on its axis. -/
theorem mem_blk (t : Fin cfg0.N) (i : S16384x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0).slice (win0_1.rect t)).set ↔ _
  rw [View.set_slice_whole, Rect.mem_set_unit]
  exact Iff.rfl

/-- Every index of the output array is in the block of the point that owns its row, `r / 512`. -/
theorem cover (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨t, ht⟩ := idx_onto ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- THE OUTPUT ARRAY after the run is the normalized array of the input. -/
theorem final (c : Dev nD) :
    (dats m 0 c).arrAt 1 cfg0.N = normalized (m ((c : Thread nD τ).loc main_arg0)) :=
  (dats m 0 c).arrAt_eq_of_cover 1 (normalized (V m c main_arg0)) (fun t _ => flushed_eq m c t) cover

/-- The kernel's run: every weakly fair execution terminates with the result array at the normalized array of the
    argument, the argument unchanged. -/
theorem run : θ_run defs (onTc (τ := τ) (main (F := Ideal))) ⟨m, fun _ => 0, ρ⟩ fun r => ∀ c : Dev nD,
      r.2.mem ((c : Thread nD τ).loc main_v0) = normalized (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.RowNormalize.Kernel

end
-- ==== Proof.RefNormalized.lean ====
/-
  The reference, read index by index: it squares the array, sums each row, takes the square root of the row sums
  (kept as a 16384 × 1 column), stretches the column back over the 4096 entries of each row and divides the array by
  it. So its entry at `(r, c)` is `x(r,c) / sqrt (rowSq x r)`, and where every row's sum of squares is positive this is
  the normalized array `x(r,c) * rsqrt (rowSq x r)` of Spec.lean.
-/
import proofs.«171980_j76338748719714_2_alg».proof.Proof.Gen.ReferenceIdeal.Read
import proofs.«171980_j76338748719714_2_alg».proof.Proof.Spec

noncomputable section

open scoped BigOperators

namespace Cert.RowNormalize.Reference

open Cert.ReferenceIdeal Cert.ReferenceIdeal.Gen Cert.ReferenceIdeal.Read
open Idealize.ShloMosaic Idealize.ShloMosaic.ValueIdx Cert.RowNormalize

/-- The reference's row-sum stage at row `j`: the zero it starts from plus the sum over the row of the squared
    entries, which is `rowSq`. -/
theorem rowSum_eq (x : Arr.Idx → EReal) (j : S16384.Idx) : val_main_v1 (F := Ideal) x j = rowSq x (j 0) := by
  rw [val_main_v1_apply]
  simp only [val_main_cst_apply, val_main_v0_apply, Ideal.ofBits_def, Ideal.ofBits_zero_f32, zero_add, Ideal.mulf_def]
  unfold rowSq
  refine Finset.sum_congr rfl fun k _ => ?_
  have e : idx_main_v1 j k = ix2 (j 0) k :=
    funext fun a => Fin.ext (by match a with | ⟨0, _⟩ => rfl | ⟨1, _⟩ => rfl)
  rw [e]
  rfl

/-- The reference's result is the normalized array, on an input whose rows all have a positive sum of squares. -/
theorem result_eq (x : Arr.Idx → EReal) (hpos : ∀ r : Fin 16384, 0 < rowSq x r) :
    val_main_v5 (F := Ideal) x = normalized x := by
  funext i
  rw [val_main_v5_apply, val_main_v4_apply, val_main_v3_apply, val_main_v2_apply, rowSum_eq,
    normalized_eq_div x i (hpos _)]
  rfl

end Cert.RowNormalize.Reference

end
-- ==== Proof.PreRows.lean ====
/-
  What the precondition says about the rows. The precondition is the conjunction of two tests of the input array:
  every entry is finite, and every row's sum of squares is greater than zero. Only the second is needed: it is the
  statement `0 < rowSq x r` for every row `r`, read off the test's own sum over the row.
-/
import proofs.«171980_j76338748719714_2_alg».proof.Proof.Gen.Pre_finite_inputs
import proofs.«171980_j76338748719714_2_alg».proof.Proof.Spec
import Idealize.ShloMosaic.Lib.ReduceAll
import Idealize.ShloMosaic.PureOps.Ideal.Laws

noncomputable section

open scoped BigOperators

namespace Cert.RowNormalize.Pre

open Idealize.ShloMosaic Idealize.ShloMosaic.ValueIdx Cert.RowNormalize
open Cert.Pre_finite_inputs Cert.Pre_finite_inputs.Facts

instance : Subsingleton Cert.Pre_finite_inputs.S_.Idx := ⟨fun a b => funext fun d => d.elim0⟩

/-- A "greater than" comparison of extended reals that answers 1 is the strict order. -/
theorem lt_of_cmp_ogt {a b : EReal} (h : Ideal.cmp .ogt a b = 1#1) : b < a := by
  change BitVec.ofBool (decide (b < a)) = 1#1 at h
  by_contra hn
  rw [decide_eq_false hn] at h
  exact absurd h (by decide)

/-- The same for two arrays compared entry by entry, read at one index. -/
theorem lt_of_cmpf_ogt {s : Shape} (X Y : FVec Ideal s .f32) (i : s.Idx) (h : cmpf .ogt X Y i = 1#1) : Y i < X i :=
  lt_of_cmp_ogt h

variable [Cert.Pre_finite_inputs.Facts]

/-- The test's sum over row `r` of an array `y`, started from zero, is the sum of the row's entries. -/
theorem hostRowSum (y : Arr.Idx → EReal) (r : Fin 16384) :
    (Host.reduceAdd (F := Ideal) (φ := .f32) y (constant S_ .f32 0x00000000#32) reducesTo_S16384x4096_S16384_d1 h_S_) (ix1 r)
      = ∑ k : Fin 4096, y (ix2 r k) := by
  simp only [Host.reduceAdd, Ideal.hostReduceAdd_def]
  rw [Ideal.hostReduceAdd_single reducesTo_S16384x4096_S16384_d1 (by decide)]
  have z : (constant S_ .f32 0x00000000#32 : FVec Ideal S_ .f32) (Shape.Idx.first h_S_) = 0 := Ideal.ofBits_zero_f32
  rw [z, zero_add]
  exact Finset.sum_congr rfl fun k _ =>
    congrArg y (funext fun a => Fin.ext (by match a with | ⟨0, _⟩ => rfl | ⟨1, _⟩ => rfl))

/-- If the precondition's test answers 1 on `x`, every row of `x` has a positive sum of squares. -/
theorem rows_pos (x : Arr.Idx → EReal) (h : Cert.Pre_finite_inputs.fn (F := Ideal) x = fun _ => 1#1)
    (r : Fin 16384) : 0 < rowSq x r := by
  have h0 := congrFun h ix0
  dsimp only [Cert.Pre_finite_inputs.fn] at h0
  -- the second conjunct: all rows pass the test "sum of squares > 0"
  have h1 := (IntOp.andi_eq_one.mp h0).2
  have h2 := Host.reduce_andi_all _ _ _ _ ix0 h1 (ix1 r)
  have h3 := lt_of_cmpf_ogt _ _ _ h2
  rw [hostRowSum] at h3
  have z : (broadcastInDim S16384 ![] bcast_S_S16384 (constant S_ .f32 0x00000000#32) : FVec Ideal S16384 .f32) (ix1 r) = 0 :=
    Ideal.ofBits_zero_f32
  rw [z] at h3
  exact h3

end Cert.RowNormalize.Pre

end
-- ==== Proof.lean ====
/-
  Per-row L2 normalization of a 16384 × 4096 array, a tiled kernel against the whole-array reference, over the
  extended reals.

  The kernel walks the array in 32 blocks of 512 whole rows; in each block it sums the squares of every row,
  takes the reciprocal square root of the sums and multiplies each entry by its row's value. The reference sums the
  squares of every row of the whole array, takes the square root and divides each entry by its row's value. With
  `s_r = ∑ k, x(r,k)²` the two results at `(r, c)` are `x(r,c) * rsqrt s_r` and `x(r,c) / sqrt s_r`.

  * A row lies whole inside one block, so the kernel's sum over a row of a block is the reference's sum over the row
    of the array (sums of extended reals may be taken in any order and grouping), and the 32 blocks tile the array:
    the kernel's result is `normalized x` (Proof/KernelBlock.lean, Proof/KernelArray.lean).
  * For `0 < s` the product with `rsqrt s` is the quotient by `sqrt s` on every extended real, the infinite ones
    included (Proof/LibRsqrtDiv.lean): at a positive real both are the product with `(√s)⁻¹`, at `⊤` both are the
    product with `0`. So the reference's result is `normalized x` too wherever every `s_r` is positive
    (Proof/RefNormalized.lean).
  * At `s_r = 0`, a row of zeros, the two sides differ: `0 * rsqrt 0 = 0 * ⊤ = 0` while `0 / sqrt 0 = 0 / 0`, which the
    extended reals answer with `⊥`. The precondition therefore asks, besides finite entries, that every row's sum of
    squares be greater than zero — the domain on which the reference's quotient is a number — and that conjunct is
    the only part of it the proof uses (Proof/PreRows.lean); finiteness of the entries is never needed.

  The three frames are the generated ones (the reference's is its generated run with the result dropped); the
  idealized kernel is the kernel's own text read over the extended reals, so there is nothing to preserve.
-/
import proofs.«171980_j76338748719714_2_alg».proof.Defs
import proofs.«171980_j76338748719714_2_alg».proof.Proof.Gen.Kernel
import proofs.«171980_j76338748719714_2_alg».proof.Proof.Gen.Kernel.Skeleton
import proofs.«171980_j76338748719714_2_alg».proof.Proof.Gen.Kernel.Launch
import proofs.«171980_j76338748719714_2_alg».proof.Proof.Gen.Kernel.Points
import proofs.«171980_j76338748719714_2_alg».proof.Proof.Gen.Kernel.Frame
import proofs.«171980_j76338748719714_2_alg».proof.Proof.Gen.KernelIdeal
import proofs.«171980_j76338748719714_2_alg».proof.Proof.Gen.KernelIdeal.Skeleton
import proofs.«171980_j76338748719714_2_alg».proof.Proof.Gen.KernelIdeal.Launch
import proofs.«171980_j76338748719714_2_alg».proof.Proof.Gen.KernelIdeal.Points
import proofs.«171980_j76338748719714_2_alg».proof.Proof.Gen.KernelIdeal.Frame
import proofs.«171980_j76338748719714_2_alg».proof.Proof.Gen.ReferenceIdeal
import proofs.«171980_j76338748719714_2_alg».proof.Proof.Gen.Pre_finite_inputs
import proofs.«171980_j76338748719714_2_alg».proof.Proof.Gen.KernelIdeal.Value
import proofs.«171980_j76338748719714_2_alg».proof.Proof.Gen.ReferenceIdeal.Run
import proofs.«171980_j76338748719714_2_alg».proof.Proof.Gen.ReferenceIdeal.Read
import proofs.«171980_j76338748719714_2_alg».proof.Proof.KernelArray
import proofs.«171980_j76338748719714_2_alg».proof.Proof.RefNormalized
import proofs.«171980_j76338748719714_2_alg».proof.Proof.PreRows
import Idealize.ShloMosaic.Adequacy
import Idealize.ShloMosaic.Init

noncomputable section

namespace Cert.Proof

open Idealize.ShloMosaic Idealize.ShloMosaic.TcCoe Idealize.SL.Sem Cert.RowNormalize

/-- The kernel as printed terminates without a fault and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the statement about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text: no operation was rewritten. -/
theorem preserves : Cert.preserves_Kernel_KernelIdeal := trivial

/-- Both programs end with the normalized array of the argument: the kernel block by block, the reference because
    every row's sum of squares is positive under the precondition. -/
theorem algebraic : Cert.algebraic_KernelIdeal_ReferenceIdeal := by
  intro m ρ m' ρ' hpre hagree
  refine ⟨fun c => normalized (m ((c.tc : Thread Cert.KernelIdeal.nD Cert.KernelIdeal.τ).loc Cert.KernelIdeal.main_arg0)),
    Cert.RowNormalize.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, hagree c]
  exact Cert.RowNormalize.Reference.result_eq _ (Cert.RowNormalize.Pre.rows_pos _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
